-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x256 : Shape := ⟨2, ![128, 256]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S524288x128 .f32) (main_arg1 : FVec F S524288x128 .f32) (main_arg2 : FVec F S128x256 .f32) (main_arg3 : FVec F S128x256 .f32) (main_arg4 : FVec F S128 .f32) (main_arg5 : FVec F S128 .f32) (main_arg6 : FVec F S128 .f32) (main_arg7 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_v13 main_v16
-- ==== Kernel.lean ====
abbrev S524288x128 : Shape := ⟨2, ![524288, 128]⟩
abbrev S128x256 : Shape := ⟨2, ![128, 256]⟩
abbrev S128 : Shape := ⟨1, ![128]⟩
abbrev S128x128 : Shape := ⟨2, ![128, 128]⟩
abbrev S256 : Shape := ⟨1, ![256]⟩
abbrev S1x256 : Shape := ⟨2, ![1, 256]⟩
abbrev S1x128 : Shape := ⟨2, ![1, 128]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 27
  | .vmem => 11
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x256, .f32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .f32⟩
  | .hbm, ⟨16, _⟩ => ⟨S128x128, .bf16⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S128x256, .bf16⟩
  | .hbm, ⟨21, _⟩ => ⟨S128x256, .bf16⟩
  | .hbm, ⟨22, _⟩ => ⟨S256, .f32⟩
  | .hbm, ⟨23, _⟩ => ⟨S1x256, .f32⟩
  | .hbm, ⟨24, _⟩ => ⟨S1x128, .f32⟩
  | .hbm, ⟨25, _⟩ => ⟨S1x128, .f32⟩
  | .hbm, ⟨26, _⟩ => ⟨S524288x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S1x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S4096x256_o0_0_S4096x128 : S4096x256.Slices ![0, 0] S4096x128
  slices_S4096x256_o0_128_S4096x128 : S4096x256.Slices ![0, 128] S4096x128
  reduces_S4096x128_S4096 : S4096x128.Reduces [1] S4096
  shapeCasts_S4096_S4096x1 : S4096.ShapeCasts S4096x1
  broadcasts_S4096x1_S4096x128 : S4096x1.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S524288x128.size a
  hwx0_7 : ∀ i : grid0.Coords, EltTy.bits .f32 = 32 ∨ (Rect.block (s := S524288x128) S4096x128.size (cc0_transform_7 i) (hinb0_7 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x256 : Shape := ⟨2, ![128, 256]⟩
abbrev S128 : Shape := ⟨1, ![128]⟩
abbrev S524288x256 : Shape := ⟨2, ![524288, 256]⟩
abbrev S1x128 : Shape := ⟨2, ![1, 128]⟩
abbrev S_ : Shape := ⟨0, ![]⟩
abbrev S524288 : Shape := ⟨1, ![524288]⟩
abbrev S524288x1 : Shape := ⟨2, ![524288, 1]⟩

abbrev nBuf : Space → Nat
  | .hbm => 61
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x256, .f32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S524288x256, .f32⟩
  | .hbm, ⟨9, _⟩ => ⟨S524288x128, .f32⟩
  | .hbm, ⟨10, _⟩ => ⟨S1x128, .f32⟩
  | .hbm, ⟨11, _⟩ => ⟨S524288x128, .f32⟩
  | .hbm, ⟨12, _⟩ => ⟨S524288x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S524288x128, .f32⟩
  | .hbm, ⟨17, _⟩ => ⟨S524288x128, .f32⟩
  | .hbm, ⟨18, _⟩ => ⟨S_, .f32⟩
  | .hbm, ⟨19, _⟩ => ⟨S524288x128, .f32⟩
  | .hbm, ⟨20, _⟩ => ⟨S524288x128, .f32⟩
  | .hbm, ⟨21, _⟩ => ⟨S524288x128, .f32⟩
  | .hbm, ⟨22, _⟩ => ⟨S1x128, .f32⟩
  | .hbm, ⟨23, _⟩ => ⟨S524288x128, .f32⟩
  | .hbm, ⟨24, _⟩ => ⟨S524288x128, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S524288x128, .f32⟩
  | .hbm, ⟨29, _⟩ => ⟨S524288x128, .f32⟩
  | .hbm, ⟨30, _⟩ => ⟨S524288x128, .f32⟩
  | .hbm, ⟨31, _⟩ => ⟨S524288x128, .f32⟩
  | .hbm, ⟨32, _⟩ => ⟨S_, .f32⟩
  | .hbm, ⟨33, _⟩ => ⟨S524288, .f32⟩
  | .hbm, ⟨34, _⟩ => ⟨S524288x1, .f32⟩
  | .hbm, ⟨35, _⟩ => ⟨S_, .f32⟩
  | .hbm, ⟨36, _⟩ => ⟨S524288x1, .f32⟩
  | .hbm, ⟨37, _⟩ => ⟨S524288x1, .f32⟩
  | .hbm, ⟨38, _⟩ => ⟨S524288x128, .f32⟩
  | .hbm, ⟨39, _⟩ => ⟨S524288x128, .f32⟩
  | .hbm, ⟨40, _⟩ => ⟨S524288x128, .f32⟩
  | .hbm, ⟨41, _⟩ => ⟨S_, .f32⟩
  | .hbm, ⟨42, _⟩ => ⟨S524288, .f32⟩
  | .hbm, ⟨43, _⟩ => ⟨S524288x1, .f32⟩
  | .hbm, ⟨44, _⟩ => ⟨S_, .f32⟩
  | .hbm, ⟨45, _⟩ => ⟨S524288x1, .f32⟩
  | .hbm, ⟨46, _⟩ => ⟨S524288x1, .f32⟩
  | .hbm, ⟨47, _⟩ => ⟨S524288x128, .f32⟩
  | .hbm, ⟨48, _⟩ => ⟨S524288x128, .f32⟩
  | .hbm, ⟨49, _⟩ => ⟨S_, .f32⟩
  | .hbm, ⟨50, _⟩ => ⟨S524288x1, .f32⟩
  | .hbm, ⟨51, _⟩ => ⟨S524288x1, .f32⟩
  | .hbm, ⟨52, _⟩ => ⟨S524288x1, .f32⟩
  | .hbm, ⟨53, _⟩ => ⟨S524288x128, .f32⟩
  | .hbm, ⟨54, _⟩ => ⟨S524288x128, .f32⟩
  | .hbm, ⟨55, _⟩ => ⟨S1x128, .f32⟩
  | .hbm, ⟨56, _⟩ => ⟨S524288x128, .f32⟩
  | .hbm, ⟨57, _⟩ => ⟨S524288x128, .f32⟩
  | .hbm, ⟨58, _⟩ => ⟨S1x128, .f32⟩
  | .hbm, ⟨59, _⟩ => ⟨S524288x128, .f32⟩
  | .hbm, ⟨60, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  concatenates_S524288x128_S524288x128_S524288x256_d1 : Shape.Concatenates [S524288x128, S524288x128] S524288x256 1
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  dot_S524288x256_S128x256_S524288x128_1_1_0_0_n_n_wf : DotDims.WF S524288x256 S128x256 S524288x128 [1] [1] [0] [0] [] []

variable [Facts₀]

def dot_S524288x256_S128x256_S524288x128_1_1_0_0_n_n : DotDims S524288x256 S128x256 S524288x128 where
  lhsContracting := [1]
  rhsContracting := [1]
  lhsNonContracting := [0]
  rhsNonContracting := [0]
  lhsBatch := []
  rhsBatch := []
  wf := dot_S524288x256_S128x256_S524288x128_1_1_0_0_n_n_wf

class Facts : Prop extends Facts₀ where

variable [Facts]
-- ==== Proof.Spec.lean ====
/-
  The gated cell and its layer norm, as ONE function of a row.

  For a row `hr` of the state and a row `xr` of the input (128 entries each), two affine maps of the
  joined row (hr | xr), one per gate and per output column n,
      z n  = Σ_k hr k · wah n k + Σ_k xr k · wax n k + ba n,
      zg n = Σ_k hr k · wgh n k + Σ_k xr k · wgx n k + bg n,
  are mixed by the sigmoid of the second, u n = σ(zg n) · tanh (z n) + (1 − σ(zg n)) · z n, and the
  mixed row is normalised over its 128 entries: with mean μ = (Σ_k u k) / 128 and variance
  v = (Σ_k (u k − μ)²) / 128, entry j of the result is (u j − μ) · (v + ε)^(-1/2) · γ j + β j.
  Everything is read on the extended reals; the three float literals (one, the width 128, ε) stay the
  binary words both programs spell. A sum over 256 joined columns is the sum over its two halves, in
  any commutative monoid: that is the only rearrangement between the two programs.
-/
import Idealize.ShloMosaic.PureOps.Ideal
import Idealize.ShloMosaic.Lib.ValueIdx
import Idealize.ShloMosaic.Lib.IdealHost

noncomputable section

open scoped BigOperators

namespace Cert.GatedNorm

open Idealize.ShloMosaic Idealize.ShloMosaic.ValueIdx

/-- Column `k` of the first half of a 256-wide row. -/
abbrev lo (k : Fin 128) : Fin 256 := ⟨k.val, by have := k.isLt; omega⟩
/-- Column `k` of the second half of a 256-wide row. -/
abbrev hi (k : Fin 128) : Fin 256 := ⟨128 + k.val, by have := k.isLt; omega⟩

/-- A sum over the 256 columns is the sum over the first 128 plus the sum over the last 128. -/
theorem sum_halves {M : Type*} [AddCommMonoid M] (f : Fin 256 → M) :
    ∑ k : Fin 256, f k = ∑ k : Fin 128, f (lo k) + ∑ k : Fin 128, f (hi k) :=
  Fin.sum_univ_add (a := 128) (b := 128) f

/-- The literal one. -/
abbrev one : EReal := Ideal.ofBits .f32 0x3F800000#32
/-- The literal 128, the row's width. -/
abbrev width : EReal := Ideal.ofBits .f32 0x43000000#32
/-- The literal ε added to the variance. -/
abbrev eps : EReal := Ideal.ofBits .f32 0x3727C5AC#32

/-- One affine map of the joined row: the state's half against `wh`, the input's half against `wx`, plus the bias. -/
def affine (hr xr wh wx : Fin 128 → EReal) (b : EReal) : EReal :=
  (∑ k : Fin 128, hr k * wh k + ∑ k : Fin 128, xr k * wx k) + b

/-- The gate: the sigmoid of `zg` mixes `tanh z` with `z` itself. -/
def gated (z zg : EReal) : EReal :=
  Ideal.logistic zg * Ideal.tanh z + (one - Ideal.logistic zg) * z

/-- The sigmoid written out: `σ(zg) = 1 / (1 + e^(-zg))` on every extended real, the one being the literal's value. -/
theorem gated_expanded (z zg : EReal) :
    gated z zg = Ideal.div one (one + Ideal.exp (-zg)) * Ideal.tanh z + (one - Ideal.div one (one + Ideal.exp (-zg))) * z := by
  unfold gated Ideal.logistic
  simp only [one, Ideal.ofBits_one_f32]

/-- The mean of a row of 128 entries. -/
def mean (u : Fin 128 → EReal) : EReal := Ideal.div (∑ k : Fin 128, u k) width

/-- The layer norm of a row, scaled by `g` and shifted by `b`, at entry `j`. -/
def norm (u g b : Fin 128 → EReal) (j : Fin 128) : EReal :=
  (u j - mean u) * Ideal.rsqrt (mean (fun k => (u k - mean u) * (u k - mean u)) + eps) * g j + b j

/-- The whole cell at entry `j` of a row. -/
def cell (hr xr : Fin 128 → EReal) (wah wax wgh wgx : Fin 128 → Fin 128 → EReal) (ba bg g b : Fin 128 → EReal)
    (j : Fin 128) : EReal :=
  norm (fun n => gated (affine hr xr (wah n) (wax n) (ba n)) (affine hr xr (wgh n) (wgx n) (bg n))) g b j

/-- The cell depends on its rows and weight rows only through their entries. -/
theorem cell_congr {hr hr' xr xr' : Fin 128 → EReal} {wah wah' wax wax' wgh wgh' wgx wgx' : Fin 128 → Fin 128 → EReal}
    {ba ba' bg bg' g g' b b' : Fin 128 → EReal} {j j' : Fin 128}
    (h1 : ∀ k, hr k = hr' k) (h2 : ∀ k, xr k = xr' k)
    (h3 : ∀ n k, wah n k = wah' n k) (h4 : ∀ n k, wax n k = wax' n k) (h5 : ∀ n k, wgh n k = wgh' n k) (h6 : ∀ n k, wgx n k = wgx' n k)
    (h7 : ∀ n, ba n = ba' n) (h8 : ∀ n, bg n = bg' n) (h9 : ∀ n, g n = g' n) (h10 : ∀ n, b n = b' n) (hj : j = j') :
    cell hr xr wah wax wgh wgx ba bg g b j = cell hr' xr' wah' wax' wgh' wgx' ba' bg' g' b' j' := by
  obtain rfl : hr = hr' := funext h1
  obtain rfl : xr = xr' := funext h2
  obtain rfl : wah = wah' := funext fun n => funext (h3 n)
  obtain rfl : wax = wax' := funext fun n => funext (h4 n)
  obtain rfl : wgh = wgh' := funext fun n => funext (h5 n)
  obtain rfl : wgx = wgx' := funext fun n => funext (h6 n)
  obtain rfl : ba = ba' := funext h7
  obtain rfl : bg = bg' := funext h8
  obtain rfl : g = g' := funext h9
  obtain rfl : b = b' := funext h10
  rw [hj]

/-- The result array as one function of the eight argument arrays: row `i 0` of the input and of the state
    through the cell, the weights' row `n` split at column 128 into its state half and its input half. -/
def G (x h : (⟨2, ![524288, 128]⟩ : Shape).Idx → EReal) (Wa Wg : (⟨2, ![128, 256]⟩ : Shape).Idx → EReal)
    (ba bg g b : (⟨1, ![128]⟩ : Shape).Idx → EReal) : (⟨2, ![524288, 128]⟩ : Shape).Idx → EReal :=
  fun i => cell (fun k => h (ix2 (n0 := 524288) (n1 := 128) (i 0) k)) (fun k => x (ix2 (n0 := 524288) (n1 := 128) (i 0) k))
    (fun n k => Wa (ix2 (n0 := 128) (n1 := 256) n (lo k))) (fun n k => Wa (ix2 (n0 := 128) (n1 := 256) n (hi k)))
    (fun n k => Wg (ix2 (n0 := 128) (n1 := 256) n (lo k))) (fun n k => Wg (ix2 (n0 := 128) (n1 := 256) n (hi k)))
    (fun n => ba (ix1 (n := 128) n)) (fun n => bg (ix1 (n := 128) n)) (fun n => g (ix1 (n := 128) n)) (fun n => b (ix1 (n := 128) n))
    (i 1)

end Cert.GatedNorm

end
-- ==== Proof.KernelPayload.lean ====
/-
  What the kernel's body computes, entry by entry.

  On a block of 4096 rows the body forms zz = h · Wh + x · Wx + bias, 256 columns wide (each product a sum over the 128
  contracted columns, from a zero accumulator), takes columns 0..127 as z and columns 128..255 as zg, mixes them through
  the gate, and normalises each mixed row: the row sum divided by the literal 128 is kept as a one-column array and
  broadcast back along the row. Read at row r and column j, each stage is the specification's stage of row r.
-/
import proofs.«141288_j16801912062282_2_alg».proof.Proof.Gen.KernelIdeal.Skeleton
import proofs.«141288_j16801912062282_2_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.Payload

open Cert.KernelIdeal Cert.KernelIdeal.Gen Cert.GatedNorm
open Idealize.ShloMosaic Idealize.ShloMosaic.ValueIdx

/-- The body's one dimension record: rows × 128 against 128 × 256, contracting the 128. -/
abbrev KD : DotDims S4096x128 S128x256 S4096x256 := dot_S4096x128_S128x256_S4096x256_1_0_0_1_n_n

/-! ## A product of a block of rows with a weight matrix -/

theorem lhs_row (i : S4096x256.Idx) (q : KD.contr.Idx) : (KD.lhsIdx i q 0).val = (i 0).val := by
  unfold DotDims.lhsIdx
  rw [dif_neg (show ¬(0 : Fin S4096x128.rank) ∈ KD.lhsBatch by decide), dif_pos (show (0 : Fin S4096x128.rank) ∈ KD.lhsNonContracting by decide)]
  rfl
theorem lhs_col (i : S4096x256.Idx) (q : KD.contr.Idx) : (KD.lhsIdx i q 1).val = (q ⟨0, by decide⟩).val :=
  KD.lhsIdx_val_of_single rfl i q
theorem rhs_row (i : S4096x256.Idx) (q : KD.contr.Idx) : (KD.rhsIdx i q 0).val = (q ⟨0, by decide⟩).val :=
  KD.rhsIdx_val_of_single rfl i q
theorem rhs_col (i : S4096x256.Idx) (q : KD.contr.Idx) : (KD.rhsIdx i q 1).val = (i 1).val := by
  unfold DotDims.rhsIdx
  rw [dif_neg (show ¬(1 : Fin S128x256.rank) ∈ KD.rhsBatch by decide), dif_pos (show (1 : Fin S128x256.rank) ∈ KD.rhsNonContracting by decide)]
  rfl

/-- Rows `a`, rounded to the narrow format (the identity on extended reals), times `w`, into a zero accumulator. -/
def prodK (a : FVec Ideal S4096x128 .f32) (w : FVec Ideal S128x256 .bf16) : FVec Ideal S4096x256 .f32 :=
  matmul KD none (truncf .bf16 a bitsLt_bf16_f32) (shapeCast S128x256 w shapeCasts_S128x256_S128x256) (constant S4096x256 .f32 0x00000000#32)

/-- Entry (r, c) of the product is the sum over k of a(r, k) · w(k, c). -/
theorem prodK_apply (a : FVec Ideal S4096x128 .f32) (w : FVec Ideal S128x256 .bf16) (r : Fin 4096) (c : Fin 256) :
    prodK a w (ix2 (n0 := 4096) (n1 := 256) r c)
      = ∑ k : Fin 128, a (ix2 (n0 := 4096) (n1 := 128) r k) * w (ix2 (n0 := 128) (n1 := 256) k c) := by
  unfold prodK
  rw [shapeCast_self]
  refine (Ideal.matmul_constant_zero_apply KD none _ _ _).trans ?_
  rw [← Equiv.sum_comp (contrEquiv1 KD 128 rfl rfl).symm]
  refine Finset.sum_congr rfl fun k _ => ?_
  have hk := contrEquiv1_symm_val KD 128 rfl rfl k
  have el : KD.lhsIdx (ix2 (n0 := 4096) (n1 := 256) r c) ((contrEquiv1 KD 128 rfl rfl).symm k) = ix2 (n0 := 4096) (n1 := 128) r k :=
    funext fun a => Fin.ext (by
      match a with
      | ⟨0, _⟩ => exact lhs_row _ _
      | ⟨1, _⟩ => exact (lhs_col _ _).trans hk)
  have er : KD.rhsIdx (ix2 (n0 := 4096) (n1 := 256) r c) ((contrEquiv1 KD 128 rfl rfl).symm k) = ix2 (n0 := 128) (n1 := 256) k c :=
    funext fun a => Fin.ext (by
      match a with
      | ⟨0, _⟩ => exact (rhs_row _ _).trans hk
      | ⟨1, _⟩ => exact rhs_col _ _)
  rw [el, er]
  rfl

/-! ## The 256-wide affine map -/

/-- The state's product plus the input's product plus the bias row, on the block. -/
def zzK (x h : FVec Ideal S4096x128 .f32) (wh wx : FVec Ideal S128x256 .bf16) (b : FVec Ideal S1x256 .f32) : FVec Ideal S4096x256 .f32 :=
  addf (addf (prodK h wh) (prodK x wx)) (broadcastTo S4096x256 (shapeCast S1x256 b shapeCasts_S1x256_S1x256) broadcasts_S1x256_S4096x256)

/-- The bias row broadcast down the block reads its entry c. -/
theorem biasrow_apply (b : FVec Ideal S1x256 .f32) (r : Fin 4096) (c : Fin 256) :
    broadcastTo S4096x256 (shapeCast S1x256 b shapeCasts_S1x256_S1x256) broadcasts_S1x256_S4096x256 (ix2 (n0 := 4096) (n1 := 256) r c)
      = b (ix2 (n0 := 1) (n1 := 256) 0 c) := by
  rw [shapeCast_self]
  exact broadcastTo_apply b _ (ix2 (n0 := 4096) (n1 := 256) r c) (ix2 (n0 := 1) (n1 := 256) 0 c) (fun a => match a with
    | ⟨0, _⟩ => by show (0 : Nat) = if (1 : Nat) = 1 then 0 else r.val; rw [if_pos rfl]
    | ⟨1, _⟩ => by show c.val = if (256 : Nat) = 1 then 0 else c.val; rw [if_neg (by decide)])

/-- Entry (r, c): the affine map of row r of the state and of the input against column c of the two weight matrices. -/
theorem zzK_apply (x h : FVec Ideal S4096x128 .f32) (wh wx : FVec Ideal S128x256 .bf16) (b : FVec Ideal S1x256 .f32) (r : Fin 4096) (c : Fin 256) :
    zzK x h wh wx b (ix2 (n0 := 4096) (n1 := 256) r c)
      = affine (fun k => h (ix2 (n0 := 4096) (n1 := 128) r k)) (fun k => x (ix2 (n0 := 4096) (n1 := 128) r k))
          (fun k => wh (ix2 (n0 := 128) (n1 := 256) k c)) (fun k => wx (ix2 (n0 := 128) (n1 := 256) k c)) (b (ix2 (n0 := 1) (n1 := 256) 0 c)) := by
  have h0 : zzK x h wh wx b (ix2 (n0 := 4096) (n1 := 256) r c)
      = (prodK h wh (ix2 (n0 := 4096) (n1 := 256) r c) + prodK x wx (ix2 (n0 := 4096) (n1 := 256) r c))
        + broadcastTo S4096x256 (shapeCast S1x256 b shapeCasts_S1x256_S1x256) broadcasts_S1x256_S4096x256 (ix2 (n0 := 4096) (n1 := 256) r c) := rfl
  rw [h0, prodK_apply, prodK_apply, biasrow_apply]
  rfl

/-! ## The gate on the two halves -/

/-- Columns 0..127 as z, columns 128..255 as zg, mixed. -/
def mixK (zz : FVec Ideal S4096x256 .f32) : FVec Ideal S4096x128 .f32 :=
  addf (mulf (logistic (extractStridedSlice S4096x128 ![0, 128] zz slices_S4096x256_o0_128_S4096x128))
          (tanh (extractStridedSlice S4096x128 ![0, 0] zz slices_S4096x256_o0_0_S4096x128)))
    (mulf (subf (broadcast S4096x128 (Scalar.ofBits .f32 0x3F800000#32)) (logistic (extractStridedSlice S4096x128 ![0, 128] zz slices_S4096x256_o0_128_S4096x128)))
          (extractStridedSlice S4096x128 ![0, 0] zz slices_S4096x256_o0_0_S4096x128))

theorem half_lo (zz : FVec Ideal S4096x256 .f32) (r : Fin 4096) (j : Fin 128) :
    extractStridedSlice S4096x128 ![0, 0] zz slices_S4096x256_o0_0_S4096x128 (ix2 (n0 := 4096) (n1 := 128) r j)
      = zz (ix2 (n0 := 4096) (n1 := 256) r (lo j)) :=
  extractStridedSlice_apply _ zz _ (ix2 (n0 := 4096) (n1 := 128) r j) (ix2 (n0 := 4096) (n1 := 256) r (lo j)) (fun a => match a with
    | ⟨0, _⟩ => by show r.val = 0 + r.val; omega
    | ⟨1, _⟩ => by show j.val = 0 + j.val; omega)
theorem half_hi (zz : FVec Ideal S4096x256 .f32) (r : Fin 4096) (j : Fin 128) :
    extractStridedSlice S4096x128 ![0, 128] zz slices_S4096x256_o0_128_S4096x128 (ix2 (n0 := 4096) (n1 := 128) r j)
      = zz (ix2 (n0 := 4096) (n1 := 256) r (hi j)) :=
  extractStridedSlice_apply _ zz _ (ix2 (n0 := 4096) (n1 := 128) r j) (ix2 (n0 := 4096) (n1 := 256) r (hi j)) (fun a => match a with
    | ⟨0, _⟩ => by show r.val = 0 + r.val; omega
    | ⟨1, _⟩ => by show 128 + j.val = 128 + j.val; rfl)

theorem mixK_apply (zz : FVec Ideal S4096x256 .f32) (r : Fin 4096) (j : Fin 128) :
    mixK zz (ix2 (n0 := 4096) (n1 := 128) r j) = gated (zz (ix2 (n0 := 4096) (n1 := 256) r (lo j))) (zz (ix2 (n0 := 4096) (n1 := 256) r (hi j))) := by
  have h0 : mixK zz (ix2 (n0 := 4096) (n1 := 128) r j)
      = gated (extractStridedSlice S4096x128 ![0, 0] zz slices_S4096x256_o0_0_S4096x128 (ix2 (n0 := 4096) (n1 := 128) r j))
          (extractStridedSlice S4096x128 ![0, 128] zz slices_S4096x256_o0_128_S4096x128 (ix2 (n0 := 4096) (n1 := 128) r j)) := rfl
  rw [h0, half_lo, half_hi]

/-! ## The mean of a row, kept as a column -/

/-- The row sums, cast to a one-column array, divided by the literal 128. -/
def meanK (u : FVec Ideal S4096x128 .f32) : FVec Ideal S4096x1 .f32 :=
  divf (shapeCast S4096x1 (multiReduction .add [1] S4096 u 0x00000000#32 reduces_S4096x128_S4096 (.inl rfl) rfl) shapeCasts_S4096_S4096x1)
    (broadcast S4096x1 (Scalar.ofBits .f32 0x43000000#32))

theorem meanK_apply (u : FVec Ideal S4096x128 .f32) (r : Fin 4096) :
    meanK u (ix2 (n0 := 4096) (n1 := 1) r 0) = mean (fun k => u (ix2 (n0 := 4096) (n1 := 128) r k)) := by
  have e1 : shapeCast S4096x1 (multiReduction .add [1] S4096 u 0x00000000#32 reduces_S4096x128_S4096 (.inl rfl) rfl) shapeCasts_S4096_S4096x1
        (ix2 (n0 := 4096) (n1 := 1) r 0)
      = multiReduction .add [1] S4096 u 0x00000000#32 reduces_S4096x128_S4096 (.inl rfl) rfl (ix1 (n := 4096) r) :=
    shapeCast_apply _ _ (ix2 (n0 := 4096) (n1 := 1) r 0) (ix1 (n := 4096) r) (by
      rw [Shape.rowMajor_val_one, Shape.rowMajor_val_two]; show r.val = r.val * 1 + 0; omega)
  have e2 : multiReduction .add [1] S4096 u 0x00000000#32 reduces_S4096x128_S4096 (.inl rfl) rfl (ix1 (n := 4096) r)
      = ∑ k : Fin 128, u (ix2 (n0 := 4096) (n1 := 128) r k) :=
    (Ideal.multiReduction_add_single u 0x00000000#32 reduces_S4096x128_S4096 (.inl rfl) rfl (ix1 (n := 4096) r)).trans
      (Finset.sum_congr rfl fun k _ => congrArg u (funext fun a => Fin.ext (by match a with | ⟨0, _⟩ => rfl | ⟨1, _⟩ => rfl)))
  have h0 : meanK u (ix2 (n0 := 4096) (n1 := 1) r 0)
      = Ideal.div (shapeCast S4096x1 (multiReduction .add [1] S4096 u 0x00000000#32 reduces_S4096x128_S4096 (.inl rfl) rfl) shapeCasts_S4096_S4096x1
          (ix2 (n0 := 4096) (n1 := 1) r 0)) width := rfl
  rw [h0, e1, e2]
  rfl

/-- A one-column array broadcast along the rows reads its entry r. -/
theorem col_apply (c : FVec Ideal S4096x1 .f32) (r : Fin 4096) (j : Fin 128) :
    broadcastTo S4096x128 c broadcasts_S4096x1_S4096x128 (ix2 (n0 := 4096) (n1 := 128) r j) = c (ix2 (n0 := 4096) (n1 := 1) r 0) :=
  broadcastTo_apply c _ (ix2 (n0 := 4096) (n1 := 128) r j) (ix2 (n0 := 4096) (n1 := 1) r 0) (fun a => match a with
    | ⟨0, _⟩ => by show r.val = if (4096 : Nat) = 1 then 0 else r.val; rw [if_neg (by decide)]
    | ⟨1, _⟩ => by show (0 : Nat) = if (1 : Nat) = 1 then 0 else j.val; rw [if_pos rfl])

/-! ## The norm -/

/-- The rows with their means taken off. -/
def centK (u : FVec Ideal S4096x128 .f32) : FVec Ideal S4096x128 .f32 :=
  subf u (broadcastTo S4096x128 (meanK u) broadcasts_S4096x1_S4096x128)

theorem centK_apply (u : FVec Ideal S4096x128 .f32) (r : Fin 4096) (j : Fin 128) :
    centK u (ix2 (n0 := 4096) (n1 := 128) r j)
      = u (ix2 (n0 := 4096) (n1 := 128) r j) - mean (fun k => u (ix2 (n0 := 4096) (n1 := 128) r k)) := by
  have h0 : centK u (ix2 (n0 := 4096) (n1 := 128) r j)
      = u (ix2 (n0 := 4096) (n1 := 128) r j) - broadcastTo S4096x128 (meanK u) broadcasts_S4096x1_S4096x128 (ix2 (n0 := 4096) (n1 := 128) r j) := rfl
  rw [h0, col_apply, meanK_apply]

/-- The centred rows times the inverse root of their variance plus ε. -/
def normK (u : FVec Ideal S4096x128 .f32) : FVec Ideal S4096x128 .f32 :=
  mulf (centK u) (broadcastTo S4096x128
    (rsqrt (addf (meanK (mulf (centK u) (centK u))) (broadcast S4096x1 (Scalar.ofBits .f32 0x3727C5AC#32)))) broadcasts_S4096x1_S4096x128)

theorem normK_apply (u : FVec Ideal S4096x128 .f32) (r : Fin 4096) (j : Fin 128) :
    normK u (ix2 (n0 := 4096) (n1 := 128) r j)
      = (u (ix2 (n0 := 4096) (n1 := 128) r j) - mean (fun k => u (ix2 (n0 := 4096) (n1 := 128) r k)))
        * Ideal.rsqrt (mean (fun k => (u (ix2 (n0 := 4096) (n1 := 128) r k) - mean (fun k => u (ix2 (n0 := 4096) (n1 := 128) r k)))
            * (u (ix2 (n0 := 4096) (n1 := 128) r k) - mean (fun k => u (ix2 (n0 := 4096) (n1 := 128) r k)))) + eps) := by
  have h0 : normK u (ix2 (n0 := 4096) (n1 := 128) r j)
      = centK u (ix2 (n0 := 4096) (n1 := 128) r j)
        * broadcastTo S4096x128 (rsqrt (addf (meanK (mulf (centK u) (centK u))) (broadcast S4096x1 (Scalar.ofBits .f32 0x3727C5AC#32))))
            broadcasts_S4096x1_S4096x128 (ix2 (n0 := 4096) (n1 := 128) r j) := rfl
  have h1 : rsqrt (addf (meanK (mulf (centK u) (centK u))) (broadcast S4096x1 (Scalar.ofBits .f32 0x3727C5AC#32))) (ix2 (n0 := 4096) (n1 := 1) r 0)
      = Ideal.rsqrt (meanK (mulf (centK u) (centK u)) (ix2 (n0 := 4096) (n1 := 1) r 0) + eps) := rfl
  have h2 : (fun k => mulf (centK u) (centK u) (ix2 (n0 := 4096) (n1 := 128) r k))
      = fun k => (u (ix2 (n0 := 4096) (n1 := 128) r k) - mean (fun k => u (ix2 (n0 := 4096) (n1 := 128) r k)))
          * (u (ix2 (n0 := 4096) (n1 := 128) r k) - mean (fun k => u (ix2 (n0 := 4096) (n1 := 128) r k))) :=
    funext fun k => by
      have h3 : mulf (centK u) (centK u) (ix2 (n0 := 4096) (n1 := 128) r k)
          = centK u (ix2 (n0 := 4096) (n1 := 128) r k) * centK u (ix2 (n0 := 4096) (n1 := 128) r k) := rfl
      rw [h3, centK_apply]
  rw [h0, col_apply, h1, meanK_apply, h2, centK_apply]

/-! ## The body's first payload -/

/-- The body's value before the scale and shift is the norm of the mixed affine block. -/
theorem pay2_eq (v0 v1 : Vec Ideal S4096x128 .f32) (v4 v6 : Vec Ideal S128x256 .bf16) (v11 : Vec Ideal S1x256 .f32) :
    k0_pay2 (F := Ideal) v0 v1 v4 v6 v11 = normK (mixK (zzK v0 v1 v4 v6 v11)) := rfl

/-- Row r of the block after the gate, as the specification's mixed row of the block's rows. -/
abbrev mixedRow (v0 v1 : Vec Ideal S4096x128 .f32) (v4 v6 : Vec Ideal S128x256 .bf16) (v11 : Vec Ideal S1x256 .f32) (r : Fin 4096) :
    Fin 128 → EReal := fun n =>
  gated
    (affine (fun k => v1 (ix2 (n0 := 4096) (n1 := 128) r k)) (fun k => v0 (ix2 (n0 := 4096) (n1 := 128) r k))
      (fun k => v4 (ix2 (n0 := 128) (n1 := 256) k (lo n))) (fun k => v6 (ix2 (n0 := 128) (n1 := 256) k (lo n))) (v11 (ix2 (n0 := 1) (n1 := 256) 0 (lo n))))
    (affine (fun k => v1 (ix2 (n0 := 4096) (n1 := 128) r k)) (fun k => v0 (ix2 (n0 := 4096) (n1 := 128) r k))
      (fun k => v4 (ix2 (n0 := 128) (n1 := 256) k (hi n))) (fun k => v6 (ix2 (n0 := 128) (n1 := 256) k (hi n))) (v11 (ix2 (n0 := 1) (n1 := 256) 0 (hi n))))

theorem mixed_apply (v0 v1 : Vec Ideal S4096x128 .f32) (v4 v6 : Vec Ideal S128x256 .bf16) (v11 : Vec Ideal S1x256 .f32) (r : Fin 4096) (n : Fin 128) :
    mixK (zzK v0 v1 v4 v6 v11) (ix2 (n0 := 4096) (n1 := 128) r n) = mixedRow v0 v1 v4 v6 v11 r n := by
  rw [mixK_apply, zzK_apply, zzK_apply]

/-- The first payload at (r, j): the centred mixed entry times the inverse root of the row's variance plus ε. -/
theorem pay2_apply (v0 v1 : Vec Ideal S4096x128 .f32) (v4 v6 : Vec Ideal S128x256 .bf16) (v11 : Vec Ideal S1x256 .f32) (r : Fin 4096) (j : Fin 128) :
    k0_pay2 (F := Ideal) v0 v1 v4 v6 v11 (ix2 (n0 := 4096) (n1 := 128) r j)
      = (mixedRow v0 v1 v4 v6 v11 r j - mean (mixedRow v0 v1 v4 v6 v11 r))
        * Ideal.rsqrt (mean (fun k => (mixedRow v0 v1 v4 v6 v11 r k - mean (mixedRow v0 v1 v4 v6 v11 r))
            * (mixedRow v0 v1 v4 v6 v11 r k - mean (mixedRow v0 v1 v4 v6 v11 r))) + eps) := by
  rw [pay2_eq, normK_apply]
  simp only [mixed_apply]

end Cert.KernelIdeal.Payload

end
-- ==== Proof.HostWindows.lean ====
/-
  What the kernel's host operations hand to its windows.

  Before the call the host cuts each 128 × 256 weight matrix at column 128, transposes each 128 × 128 half, narrows it
  (the identity on extended reals) and joins the halves of the two matrices side by side: entry (k, n) of the state's
  matrix is W_a(n, k) for n < 128 and W_g(n − 128, k) beyond; the input's matrix reads columns 128 + k instead. The two
  bias vectors are joined into one row of 256; the scale and the shift become rows of 128. Here each of these is a term
  of the argument arrays, read at an index, and the array a window finds is that term.
-/
import proofs.«141288_j16801912062282_2_alg».proof.Proof.Gen.KernelIdeal.Frame
import proofs.«141288_j16801912062282_2_alg».proof.Proof.Spec
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Cert.GatedNorm
open Idealize.ShloMosaic Idealize.ShloMosaic.ValueIdx Idealize.ShloMosaic.TcCoe Idealize.SL.Sem Idealize.ShloMosaic.StableHlo

variable {F : FTy → Type} [FloatOps F]

/-! ## The terms -/

/-- One half of a weight matrix (columns from `off`), transposed and narrowed. -/
def halfT (off : Fin 2 → Nat) (hs : S128x256.Slices off S128x128) (W : FVec F S128x256 .f32) : FVec F S128x128 .bf16 :=
  truncf .bf16 (transpose S128x128 [1, 0] (extractStridedSlice S128x128 off W hs) transposes_S128x128_S128x128_1_0) bitsLt_bf16_f32

/-- The matrix the state's rows are multiplied by: the first halves of the two weight matrices. -/
def whOf (Wa Wg : FVec F S128x256 .f32) : FVec F S128x256 .bf16 :=
  concatenate S128x256 1 [⟨S128x128, halfT ![0, 0] slices_S128x256_S128x128_0_0 Wa⟩, ⟨S128x128, halfT ![0, 0] slices_S128x256_S128x128_0_0 Wg⟩]
    concatenates_S128x128_S128x128_S128x256_d1

/-- The matrix the input's rows are multiplied by: the second halves. -/
def wxOf (Wa Wg : FVec F S128x256 .f32) : FVec F S128x256 .bf16 :=
  concatenate S128x256 1 [⟨S128x128, halfT ![0, 128] slices_S128x256_S128x128_0_128 Wa⟩, ⟨S128x128, halfT ![0, 128] slices_S128x256_S128x128_0_128 Wg⟩]
    concatenates_S128x128_S128x128_S128x256_d1

/-- The two bias vectors as one row of 256. -/
def biasOf (ba bg : FVec F S128 .f32) : FVec F S1x256 .f32 :=
  shapeCast S1x256 (concatenate S256 0 [⟨S128, ba⟩, ⟨S128, bg⟩] concatenates_S128_S128_S256_d0) shapeCasts_S256_S1x256

/-- A vector of 128 as a row. -/
def rowOf (g : FVec F S128 .f32) : FVec F S1x128 .f32 := shapeCast S1x128 g shapeCasts_S128_S1x128

/-! ## The windows' arrays are these terms -/

variable (m : (ℓ : Loc nD τ sig) → Buf (Elt F) ℓ)

theorem V_wh (c : Dev nD) :
    (V m c main_v12 : S128x256.Idx → F .bf16) = whOf (m ((c : Thread nD τ).loc main_arg2)) (m ((c : Thread nD τ).loc main_arg3)) := by
  dsimp only [V, hostOps0]; after_results; rfl

theorem V_wx (c : Dev nD) :
    (V m c main_v13 : S128x256.Idx → F .bf16) = wxOf (m ((c : Thread nD τ).loc main_arg2)) (m ((c : Thread nD τ).loc main_arg3)) := by
  dsimp only [V, hostOps0]; after_results; rfl

theorem V_bias (c : Dev nD) :
    (V m c main_v15 : S1x256.Idx → F .f32) = biasOf (m ((c : Thread nD τ).loc main_arg4)) (m ((c : Thread nD τ).loc main_arg5)) := by
  dsimp only [V, hostOps0]; after_results; rfl

theorem V_scale (c : Dev nD) :
    (V m c main_v16 : S1x128.Idx → F .f32) = rowOf (m ((c : Thread nD τ).loc main_arg6)) := by
  dsimp only [V, hostOps0]; after_results; rfl

theorem V_shift (c : Dev nD) :
    (V m c main_v17 : S1x128.Idx → F .f32) = rowOf (m ((c : Thread nD τ).loc main_arg7)) := by
  dsimp only [V, hostOps0]; after_results; rfl

/-! ## The terms at an index, on the extended reals -/

theorem halfT_lo (W : FVec Ideal S128x256 .f32) (k n : Fin 128) :
    halfT ![0, 0] slices_S128x256_S128x128_0_0 W (ix2 (n0 := 128) (n1 := 128) k n) = W (ix2 (n0 := 128) (n1 := 256) n (lo k)) := by
  have h0 : halfT ![0, 0] slices_S128x256_S128x128_0_0 W (ix2 (n0 := 128) (n1 := 128) k n)
      = transpose S128x128 [1, 0] (extractStridedSlice S128x128 ![0, 0] W slices_S128x256_S128x128_0_0) transposes_S128x128_S128x128_1_0
          (ix2 (n0 := 128) (n1 := 128) k n) := rfl
  rw [h0]
  refine (transpose_apply [1, 0] _ _ (ix2 (n0 := 128) (n1 := 128) k n) (ix2 (n0 := 128) (n1 := 128) n k)
    (fun b => match b with | ⟨0, _⟩ => rfl | ⟨1, _⟩ => rfl)).trans ?_
  exact extractStridedSlice_apply _ W _ (ix2 (n0 := 128) (n1 := 128) n k) (ix2 (n0 := 128) (n1 := 256) n (lo k)) (fun a => match a with
    | ⟨0, _⟩ => by show n.val = 0 + n.val; omega
    | ⟨1, _⟩ => by show k.val = 0 + k.val; omega)

theorem halfT_hi (W : FVec Ideal S128x256 .f32) (k n : Fin 128) :
    halfT ![0, 128] slices_S128x256_S128x128_0_128 W (ix2 (n0 := 128) (n1 := 128) k n) = W (ix2 (n0 := 128) (n1 := 256) n (hi k)) := by
  have h0 : halfT ![0, 128] slices_S128x256_S128x128_0_128 W (ix2 (n0 := 128) (n1 := 128) k n)
      = transpose S128x128 [1, 0] (extractStridedSlice S128x128 ![0, 128] W slices_S128x256_S128x128_0_128) transposes_S128x128_S128x128_1_0
          (ix2 (n0 := 128) (n1 := 128) k n) := rfl
  rw [h0]
  refine (transpose_apply [1, 0] _ _ (ix2 (n0 := 128) (n1 := 128) k n) (ix2 (n0 := 128) (n1 := 128) n k)
    (fun b => match b with | ⟨0, _⟩ => rfl | ⟨1, _⟩ => rfl)).trans ?_
  exact extractStridedSlice_apply _ W _ (ix2 (n0 := 128) (n1 := 128) n k) (ix2 (n0 := 128) (n1 := 256) n (hi k)) (fun a => match a with
    | ⟨0, _⟩ => by show n.val = 0 + n.val; omega
    | ⟨1, _⟩ => by show 128 + k.val = 128 + k.val; rfl)

/-- Two 128 × 128 matrices side by side: the left one in columns 0..127. -/
theorem pair_lo (A B : FVec Ideal S128x128 .bf16) (k n : Fin 128) :
    concatenate S128x256 1 [⟨S128x128, A⟩, ⟨S128x128, B⟩] concatenates_S128x128_S128x128_S128x256_d1 (ix2 (n0 := 128) (n1 := 256) k (lo n))
      = A (ix2 (n0 := 128) (n1 := 128) k n) := by
  refine concatenate_pair_apply_left (t := S128x256) (s₁ := S128x128) (s₂ := S128x128) 1 A B _
    (ix2 (n0 := 128) (n1 := 256) k (lo n)) rfl (ix2 (n0 := 128) (n1 := 128) k n) ?_
  intro b
  match b with | ⟨0, _⟩ => rfl | ⟨1, _⟩ => rfl

/-- … and the right one in columns 128..255. -/
theorem pair_hi (A B : FVec Ideal S128x128 .bf16) (k n : Fin 128) :
    concatenate S128x256 1 [⟨S128x128, A⟩, ⟨S128x128, B⟩] concatenates_S128x128_S128x128_S128x256_d1 (ix2 (n0 := 128) (n1 := 256) k (hi n))
      = B (ix2 (n0 := 128) (n1 := 128) k n) := by
  refine concatenate_pair_apply_right (t := S128x256) (s₁ := S128x128) (s₂ := S128x128) 1 A B _
    (ix2 (n0 := 128) (n1 := 256) k (hi n)) rfl rfl (ix2 (n0 := 128) (n1 := 128) k n) ?_ ?_
  · intro b hb
    match b, hb with | ⟨0, _⟩, _ => rfl | ⟨1, _⟩, hb => exact absurd rfl hb
  · show n.val + 128 = 128 + n.val; omega

theorem wh_lo (Wa Wg : FVec Ideal S128x256 .f32) (k n : Fin 128) :
    whOf Wa Wg (ix2 (n0 := 128) (n1 := 256) k (lo n)) = Wa (ix2 (n0 := 128) (n1 := 256) n (lo k)) := by
  unfold whOf; rw [pair_lo, halfT_lo]
theorem wh_hi (Wa Wg : FVec Ideal S128x256 .f32) (k n : Fin 128) :
    whOf Wa Wg (ix2 (n0 := 128) (n1 := 256) k (hi n)) = Wg (ix2 (n0 := 128) (n1 := 256) n (lo k)) := by
  unfold whOf; rw [pair_hi, halfT_lo]
theorem wx_lo (Wa Wg : FVec Ideal S128x256 .f32) (k n : Fin 128) :
    wxOf Wa Wg (ix2 (n0 := 128) (n1 := 256) k (lo n)) = Wa (ix2 (n0 := 128) (n1 := 256) n (hi k)) := by
  unfold wxOf; rw [pair_lo, halfT_hi]
theorem wx_hi (Wa Wg : FVec Ideal S128x256 .f32) (k n : Fin 128) :
    wxOf Wa Wg (ix2 (n0 := 128) (n1 := 256) k (hi n)) = Wg (ix2 (n0 := 128) (n1 := 256) n (hi k)) := by
  unfold wxOf; rw [pair_hi, halfT_hi]

theorem bias_lo (ba bg : FVec Ideal S128 .f32) (n : Fin 128) :
    biasOf ba bg (ix2 (n0 := 1) (n1 := 256) 0 (lo n)) = ba (ix1 (n := 128) n) := by
  unfold biasOf
  refine (shapeCast_apply _ _ (ix2 (n0 := 1) (n1 := 256) 0 (lo n)) (ix1 (n := 256) (lo n)) (by
    rw [Shape.rowMajor_val_one, Shape.rowMajor_val_two]; show n.val = 0 * 256 + n.val; omega)).trans ?_
  refine concatenate_pair_apply_left (t := S256) (s₁ := S128) (s₂ := S128) 0 ba bg _ (ix1 (n := 256) (lo n)) rfl (ix1 (n := 128) n) ?_
  intro b
  match b with | ⟨0, _⟩ => rfl

theorem bias_hi (ba bg : FVec Ideal S128 .f32) (n : Fin 128) :
    biasOf ba bg (ix2 (n0 := 1) (n1 := 256) 0 (hi n)) = bg (ix1 (n := 128) n) := by
  unfold biasOf
  refine (shapeCast_apply _ _ (ix2 (n0 := 1) (n1 := 256) 0 (hi n)) (ix1 (n := 256) (hi n)) (by
    rw [Shape.rowMajor_val_one, Shape.rowMajor_val_two]; show 128 + n.val = 0 * 256 + (128 + n.val); omega)).trans ?_
  refine concatenate_pair_apply_right (t := S256) (s₁ := S128) (s₂ := S128) 0 ba bg _ (ix1 (n := 256) (hi n)) rfl rfl (ix1 (n := 128) n) ?_ ?_
  · intro b hb
    match b, hb with | ⟨0, _⟩, hb => exact absurd rfl hb
  · show n.val + 128 = 128 + n.val; omega

theorem row_at (g : FVec Ideal S128 .f32) (n : Fin 128) :
    rowOf g (ix2 (n0 := 1) (n1 := 128) 0 n) = g (ix1 (n := 128) n) := by
  unfold rowOf
  exact shapeCast_apply _ _ (ix2 (n0 := 1) (n1 := 128) 0 n) (ix1 (n := 128) n) (by
    rw [Shape.rowMajor_val_one, Shape.rowMajor_val_two]; show n.val = 0 * 128 + n.val; omega)

end Cert.KernelIdeal.HostSide

end
-- ==== Proof.Blocks.lean ====
/-
  From the blocks to the whole array.

  Grid point t stages rows 4096·t .. 4096·t + 4095 of the input and of the state, and the whole of the two weight
  matrices, the bias row, the scale row and the shift row; what it writes back is, entry by entry, the cell of its own
  rows. So the block point t leaves is block t of ONE whole-array function of the eight arguments, and since row r lies
  in the block of point r / 4096, the 128 blocks fill the array: after the run the result array is that function.
-/
import proofs.«141288_j16801912062282_2_alg».proof.Proof.Gen.KernelIdeal.Value
import proofs.«141288_j16801912062282_2_alg».proof.Proof.KernelPayload
import proofs.«141288_j16801912062282_2_alg».proof.Proof.HostWindows
import proofs.«141288_j16801912062282_2_alg».proof.Proof.Spec

noncomputable section

namespace Cert.KernelIdeal.Blocks

open Cert.KernelIdeal Cert.KernelIdeal.Gen Cert.GatedNorm
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## What the body leaves, as the cell of its loads -/

/-- Entry (r, j) of the block the body stores: the cell of row r of the two staged row blocks, with column n of the two
    staged matrices as the weight rows (first 128 columns for one gate, last 128 for the other). -/
theorem out_block (x0 x1 : Vec Ideal S4096x128 .f32) (x2 x3 : Vec Ideal S128x256 .bf16) (x4 : Vec Ideal S1x256 .f32)
    (x5 x6 : Vec Ideal S1x128 .f32) (r : Fin 4096) (j : Fin 128) :
    out0_7 x0 x1 x2 x3 x4 x5 x6 (ix2 (n0 := 4096) (n1 := 128) r j)
      = cell (fun k => x1 (ix2 (n0 := 4096) (n1 := 128) r k)) (fun k => x0 (ix2 (n0 := 4096) (n1 := 128) r k))
          (fun n k => x2 (ix2 (n0 := 128) (n1 := 256) k (lo n))) (fun n k => x3 (ix2 (n0 := 128) (n1 := 256) k (lo n)))
          (fun n k => x2 (ix2 (n0 := 128) (n1 := 256) k (hi n))) (fun n k => x3 (ix2 (n0 := 128) (n1 := 256) k (hi n)))
          (fun n => x4 (ix2 (n0 := 1) (n1 := 256) 0 (lo n))) (fun n => x4 (ix2 (n0 := 1) (n1 := 256) 0 (hi n)))
          (fun n => x5 (ix2 (n0 := 1) (n1 := 128) 0 n)) (fun n => x6 (ix2 (n0 := 1) (n1 := 128) 0 n)) j := by
  unfold out0_7
  rw [Value.canon7_eq]
  simp only [View.ld_unit_zero (S := S4096x128) zero_offsets, View.ld_unit_zero (S := S128x256) zero_offsets, View.ld_unit_zero (S := S1x256) zero_offsets,
    View.ld_unit_zero (S := S1x128) zero_offsets]
  have e0 : Value.ix7_0 (ix2 (n0 := 4096) (n1 := 128) r j) = ix2 (n0 := 4096) (n1 := 128) r j :=
    funext fun a => Fin.ext (by match a with | ⟨0, _⟩ => rfl | ⟨1, _⟩ => rfl)
  have e1 : Value.ix7_1 (ix2 (n0 := 4096) (n1 := 128) r j) = ix2 (n0 := 1) (n1 := 128) 0 j :=
    funext fun a => Fin.ext (by match a with | ⟨0, _⟩ => rfl | ⟨1, _⟩ => rfl)
  have e2 : Value.ix7_2 (ix2 (n0 := 4096) (n1 := 128) r j) = ix2 (n0 := 1) (n1 := 128) 0 j :=
    funext fun a => Fin.ext (by match a with | ⟨0, _⟩ => rfl | ⟨1, _⟩ => rfl)
  show k0_pay2 (F := Ideal) x0 x1 x2 x3 x4 (Value.ix7_0 (ix2 (n0 := 4096) (n1 := 128) r j)) * x5 (Value.ix7_1 (ix2 (n0 := 4096) (n1 := 128) r j))
      + x6 (Value.ix7_2 (ix2 (n0 := 4096) (n1 := 128) r j)) = _
  rw [e0, e1, e2, Payload.pay2_apply]
  rfl

/-- The same at any index of the block. -/
theorem out_block' (x0 x1 : Vec Ideal S4096x128 .f32) (x2 x3 : Vec Ideal S128x256 .bf16) (x4 : Vec Ideal S1x256 .f32)
    (x5 x6 : Vec Ideal S1x128 .f32) (y : S4096x128.Idx) :
    out0_7 x0 x1 x2 x3 x4 x5 x6 y
      = cell (fun k => x1 (ix2 (n0 := 4096) (n1 := 128) (y 0) k)) (fun k => x0 (ix2 (n0 := 4096) (n1 := 128) (y 0) k))
          (fun n k => x2 (ix2 (n0 := 128) (n1 := 256) k (lo n))) (fun n k => x3 (ix2 (n0 := 128) (n1 := 256) k (lo n)))
          (fun n k => x2 (ix2 (n0 := 128) (n1 := 256) k (hi n))) (fun n k => x3 (ix2 (n0 := 128) (n1 := 256) k (hi n)))
          (fun n => x4 (ix2 (n0 := 1) (n1 := 256) 0 (lo n))) (fun n => x4 (ix2 (n0 := 1) (n1 := 256) 0 (hi n)))
          (fun n => x5 (ix2 (n0 := 1) (n1 := 128) 0 n)) (fun n => x6 (ix2 (n0 := 1) (n1 := 128) 0 n)) (y 1) := by
  obtain ⟨r, j, rfl⟩ : ∃ (r : Fin 4096) (j : Fin 128), y = ix2 (n0 := 4096) (n1 := 128) r j := ⟨y 0, y 1, eq_ix2 y⟩
  exact out_block x0 x1 x2 x3 x4 x5 x6 r j

/-! ## The whole-array function at the launch memory -/

/-- The result array as the specification's function of the eight argument arrays as launched. -/
abbrev Gm (c : Dev nD) : S524288x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The printed index maps, decided over the 128 points: the two row windows move with the output's block along the rows,
    every other window stays on its one block, and the output's block at point t is block t. -/
theorem block_positions : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## What point t writes back -/

theorem written_back (c : Dev nD) (t : Fin cfg0.N) :
    (dats m 0 c).flushed 7 t = ((cfg0.win 7).blk t).view.read (Elt Ideal) (Gm m c) := by
  rw [Value.flushed7]
  obtain ⟨f00, f01, f10, f11, f20, f21, f30, f31, f40, f41, f50, f51, f60, f61, f70, f71⟩ := block_positions t
  funext y
  show out0_7 (iblk m c 0 t) (iblk m c 1 t) (iblk m c 2 t) (iblk m c 3 t) (iblk m c 4 t) (iblk m c 5 t) (iblk m c 6 t) y
      = Gm m c (((cfg0.win 7).blk t).view.emb y)
  rw [out_block']
  refine cell_congr (fun k => ?_) (fun k => ?_) (fun n k => ?_) (fun n k => ?_) (fun n k => ?_) (fun n k => ?_)
    (fun n => ?_) (fun n => ?_) (fun n => ?_) (fun n => ?_) ?_
  · -- the state's row
    show V m c main_arg1 (((cfg0.win 1).blk t).view.emb (ix2 (n0 := 4096) (n1 := 128) (y 0) k)) = _
    rw [V_main_arg1]
    refine congrArg (m ((c : Thread nD τ).loc main_arg1)) (funext fun a => Fin.ext ?_)
    match a with
    | ⟨0, _⟩ => show win0_1.index t (0 : Fin 2) * 4096 + 1 * (y 0).val = win0_7.index t (0 : Fin 2) * 4096 + 1 * (y 0).val; omega
    | ⟨1, _⟩ => show win0_1.index t (1 : Fin 2) * 128 + 1 * k.val = k.val; omega
  · -- the input's row
    show V m c main_arg0 (((cfg0.win 0).blk t).view.emb (ix2 (n0 := 4096) (n1 := 128) (y 0) k)) = _
    rw [V_main_arg0]
    refine congrArg (m ((c : Thread nD τ).loc main_arg0)) (funext fun a => Fin.ext ?_)
    match a with
    | ⟨0, _⟩ => show win0_0.index t (0 : Fin 2) * 4096 + 1 * (y 0).val = win0_7.index t (0 : Fin 2) * 4096 + 1 * (y 0).val; omega
    | ⟨1, _⟩ => show win0_0.index t (1 : Fin 2) * 128 + 1 * k.val = k.val; omega
  · -- W_a's state half
    show V m c main_v12 (((cfg0.win 2).blk t).view.emb (ix2 (n0 := 128) (n1 := 256) k (lo n))) = _
    have e : ((cfg0.win 2).blk t).view.emb (ix2 (n0 := 128) (n1 := 256) k (lo n)) = ix2 (n0 := 128) (n1 := 256) k (lo n) :=
      funext fun a => Fin.ext (by
        match a with
        | ⟨0, _⟩ => show win0_2.index t (0 : Fin 2) * 128 + 1 * k.val = k.val; omega
        | ⟨1, _⟩ => show win0_2.index t (1 : Fin 2) * 256 + 1 * n.val = n.val; omega)
    rw [e, HostSide.V_wh, HostSide.wh_lo]
  · -- W_a's input half
    show V m c main_v13 (((cfg0.win 3).blk t).view.emb (ix2 (n0 := 128) (n1 := 256) k (lo n))) = _
    have e : ((cfg0.win 3).blk t).view.emb (ix2 (n0 := 128) (n1 := 256) k (lo n)) = ix2 (n0 := 128) (n1 := 256) k (lo n) :=
      funext fun a => Fin.ext (by
        match a with
        | ⟨0, _⟩ => show win0_3.index t (0 : Fin 2) * 128 + 1 * k.val = k.val; omega
        | ⟨1, _⟩ => show win0_3.index t (1 : Fin 2) * 256 + 1 * n.val = n.val; omega)
    rw [e, HostSide.V_wx, HostSide.wx_lo]
  · -- W_g's state half
    show V m c main_v12 (((cfg0.win 2).blk t).view.emb (ix2 (n0 := 128) (n1 := 256) k (hi n))) = _
    have e : ((cfg0.win 2).blk t).view.emb (ix2 (n0 := 128) (n1 := 256) k (hi n)) = ix2 (n0 := 128) (n1 := 256) k (hi n) :=
      funext fun a => Fin.ext (by
        match a with
        | ⟨0, _⟩ => show win0_2.index t (0 : Fin 2) * 128 + 1 * k.val = k.val; omega
        | ⟨1, _⟩ => show win0_2.index t (1 : Fin 2) * 256 + 1 * (128 + n.val) = 128 + n.val; omega)
    rw [e, HostSide.V_wh, HostSide.wh_hi]
  · -- W_g's input half
    show V m c main_v13 (((cfg0.win 3).blk t).view.emb (ix2 (n0 := 128) (n1 := 256) k (hi n))) = _
    have e : ((cfg0.win 3).blk t).view.emb (ix2 (n0 := 128) (n1 := 256) k (hi n)) = ix2 (n0 := 128) (n1 := 256) k (hi n) :=
      funext fun a => Fin.ext (by
        match a with
        | ⟨0, _⟩ => show win0_3.index t (0 : Fin 2) * 128 + 1 * k.val = k.val; omega
        | ⟨1, _⟩ => show win0_3.index t (1 : Fin 2) * 256 + 1 * (128 + n.val) = 128 + n.val; omega)
    rw [e, HostSide.V_wx, HostSide.wx_hi]
  · -- b_a
    show V m c main_v15 (((cfg0.win 4).blk t).view.emb (ix2 (n0 := 1) (n1 := 256) 0 (lo n))) = _
    have e : ((cfg0.win 4).blk t).view.emb (ix2 (n0 := 1) (n1 := 256) 0 (lo n)) = ix2 (n0 := 1) (n1 := 256) 0 (lo n) :=
      funext fun a => Fin.ext (by
        match a with
        | ⟨0, _⟩ => show win0_4.index t (0 : Fin 2) * 1 + 1 * 0 = 0; omega
        | ⟨1, _⟩ => show win0_4.index t (1 : Fin 2) * 256 + 1 * n.val = n.val; omega)
    rw [e, HostSide.V_bias, HostSide.bias_lo]
  · -- b_g
    show V m c main_v15 (((cfg0.win 4).blk t).view.emb (ix2 (n0 := 1) (n1 := 256) 0 (hi n))) = _
    have e : ((cfg0.win 4).blk t).view.emb (ix2 (n0 := 1) (n1 := 256) 0 (hi n)) = ix2 (n0 := 1) (n1 := 256) 0 (hi n) :=
      funext fun a => Fin.ext (by
        match a with
        | ⟨0, _⟩ => show win0_4.index t (0 : Fin 2) * 1 + 1 * 0 = 0; omega
        | ⟨1, _⟩ => show win0_4.index t (1 : Fin 2) * 256 + 1 * (128 + n.val) = 128 + n.val; omega)
    rw [e, HostSide.V_bias, HostSide.bias_hi]
  · -- the scale
    show V m c main_v16 (((cfg0.win 5).blk t).view.emb (ix2 (n0 := 1) (n1 := 128) 0 n)) = _
    have e : ((cfg0.win 5).blk t).view.emb (ix2 (n0 := 1) (n1 := 128) 0 n) = ix2 (n0 := 1) (n1 := 128) 0 n :=
      funext fun a => Fin.ext (by
        match a with
        | ⟨0, _⟩ => show win0_5.index t (0 : Fin 2) * 1 + 1 * 0 = 0; omega
        | ⟨1, _⟩ => show win0_5.index t (1 : Fin 2) * 128 + 1 * n.val = n.val; omega)
    rw [e, HostSide.V_scale, HostSide.row_at]
  · -- the shift
    show V m c main_v17 (((cfg0.win 6).blk t).view.emb (ix2 (n0 := 1) (n1 := 128) 0 n)) = _
    have e : ((cfg0.win 6).blk t).view.emb (ix2 (n0 := 1) (n1 := 128) 0 n) = ix2 (n0 := 1) (n1 := 128) 0 n :=
      funext fun a => Fin.ext (by
        match a with
        | ⟨0, _⟩ => show win0_6.index t (0 : Fin 2) * 1 + 1 * 0 = 0; omega
        | ⟨1, _⟩ => show win0_6.index t (1 : Fin 2) * 128 + 1 * n.val = n.val; omega)
    rw [e, HostSide.V_shift, HostSide.row_at]
  · -- the column
    refine Fin.ext ?_
    show (y 1).val = win0_7.index t (1 : Fin 2) * 128 + 1 * (y 1).val
    omega

/-! ## The blocks fill the array -/

/-- An index of the array is in point t's block iff each coordinate is in the block's range on its axis. -/
theorem in_block_iff (t : Fin cfg0.N) (i : S524288x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v18).slice (win0_7.rect t)).set ↔ _
  rw [View.set_slice_whole, Rect.mem_set_unit]
  exact Iff.rfl

/-- Row r of the array lies in the block of point r / 4096. -/
theorem rows_covered (i : S524288x128.Idx) :
    ∃ t : Fin cfg0.N, (cfg0.win 7).flush t = true ∧ i ∈ ((cfg0.win 7).blk t).view.set := by
  have hi0 : (i 0).val < 524288 := (i 0).isLt
  have hi1 : (i 1).val < 128 := (i 1).isLt
  have hlt : (i 0).val / 4096 < grid0.N := by rw [N_0]; omega
  obtain ⟨-, -, -, -, -, -, -, -, -, -, -, -, -, -, f70, f71⟩ := block_positions ⟨(i 0).val / 4096, hlt⟩
  have q0 : win0_7.index ⟨(i 0).val / 4096, hlt⟩ (0 : Fin 2) = (i 0).val / 4096 := f70
  refine ⟨⟨(i 0).val / 4096, hlt⟩, flush0_7 _, ?_⟩
  rw [in_block_iff]
  intro a
  match a with
  | ⟨0, _⟩ =>
    show win0_7.index ⟨(i 0).val / 4096, hlt⟩ (0 : Fin 2) * 4096 ≤ (i 0).val
      ∧ (i 0).val < win0_7.index ⟨(i 0).val / 4096, hlt⟩ (0 : Fin 2) * 4096 + 4096
    omega
  | ⟨1, _⟩ =>
    show win0_7.index ⟨(i 0).val / 4096, hlt⟩ (1 : Fin 2) * 128 ≤ (i 1).val
      ∧ (i 1).val < win0_7.index ⟨(i 0).val / 4096, hlt⟩ (1 : Fin 2) * 128 + 128
    omega

/-! ## The array after the run, and the run -/

theorem array_after (c : Dev nD) : (dats m 0 c).arrAt 7 cfg0.N = Gm m c :=
  (dats m 0 c).arrAt_eq_of_cover 7 (Gm m c) (fun t _ => written_back m c t) rows_covered

/-- Every weakly fair execution of the kernel's program ends with the result array at the specification's function of the
    arguments as launched, and the arguments unchanged. -/
theorem run : θ_run defs (onTc (τ := τ) (main (F := Ideal))) ⟨m, fun _ => 0, ρ⟩ fun r => ∀ c : Dev nD,
      r.2.mem ((c : Thread nD τ).loc main_v18) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (array_after m c), (h c).2⟩) (Value.run_blocks m ρ)

end Cert.KernelIdeal.Blocks

end
-- ==== Proof.RefRead.lean ====
/-
  The reference computes the gated cell and its norm row by row.

  Its joined row (state | input) against row n of a weight matrix is ONE sum over 256 columns; cut at column 128 it is
  the state's half against the first 128 columns plus the input's half against the last 128. Its sigmoid is spelt
  1 / (1 + e^(-zg)); its two means start their sums from the literal zero. Stage by stage, each read at row r and
  column j, the stages are the specification's: the two affine maps, the mixed row, its mean, the centred entry, the
  variance, and the scaled and shifted result.
-/
import proofs.«141288_j16801912062282_2_alg».proof.Proof.Gen.ReferenceIdeal.Read
import proofs.«141288_j16801912062282_2_alg».proof.Proof.Spec

noncomputable section

open scoped BigOperators

namespace Cert.ReferenceIdeal.RefValue

open Cert.ReferenceIdeal Cert.ReferenceIdeal.Read Cert.GatedNorm
open Idealize.ShloMosaic Idealize.ShloMosaic.ValueIdx

/-- The two big arrays, the two weight matrices, the four vectors. -/
abbrev Arr := (⟨S524288x128, .f32⟩ : BufTy).Contents (Elt Ideal)
abbrev Mat := (⟨S128x256, .f32⟩ : BufTy).Contents (Elt Ideal)
abbrev Row := (⟨S128, .f32⟩ : BufTy).Contents (Elt Ideal)

variable (x0 x1 : Arr) (x2 x3 : Mat) (x4 x5 x6 x7 : Row)

/-! ## The joined row -/

/-- Column k < 128 of the joined row r is the state's entry (r, k). -/
theorem joined_lo (r : Fin 524288) (k : Fin 128) :
    val_main_v0 (F := Ideal) x0 x1 (ix2 (n0 := 524288) (n1 := 256) r (lo k)) = x1 (ix2 (n0 := 524288) (n1 := 128) r k) := by
  unfold val_main_v0
  refine concatenate_pair_apply_left (t := S524288x256) (s₁ := S524288x128) (s₂ := S524288x128) 1 x1 x0 _
    (ix2 (n0 := 524288) (n1 := 256) r (lo k)) rfl (ix2 (n0 := 524288) (n1 := 128) r k) ?_
  intro b
  match b with | ⟨0, _⟩ => rfl | ⟨1, _⟩ => rfl

/-- Column 128 + k of the joined row r is the input's entry (r, k). -/
theorem joined_hi (r : Fin 524288) (k : Fin 128) :
    val_main_v0 (F := Ideal) x0 x1 (ix2 (n0 := 524288) (n1 := 256) r (hi k)) = x0 (ix2 (n0 := 524288) (n1 := 128) r k) := by
  unfold val_main_v0
  refine concatenate_pair_apply_right (t := S524288x256) (s₁ := S524288x128) (s₂ := S524288x128) 1 x1 x0 _
    (ix2 (n0 := 524288) (n1 := 256) r (hi k)) rfl rfl (ix2 (n0 := 524288) (n1 := 128) r k) ?_ ?_
  · intro b hb
    match b, hb with | ⟨0, _⟩, _ => rfl | ⟨1, _⟩, hb => exact absurd rfl hb
  · show k.val + 128 = 128 + k.val; omega

/-! ## The two affine maps -/

/-- The state's and the input's halves of row r against a 256-wide row n of weights, plus a bias. -/
abbrev aff (W : Mat) (b : Row) (r : Fin 524288) (n : Fin 128) : EReal :=
  affine (fun k => x1 (ix2 (n0 := 524288) (n1 := 128) r k)) (fun k => x0 (ix2 (n0 := 524288) (n1 := 128) r k))
    (fun k => W (ix2 (n0 := 128) (n1 := 256) n (lo k))) (fun k => W (ix2 (n0 := 128) (n1 := 256) n (hi k))) (b (ix1 (n := 128) n))

/-- The gate's product: the sum over the 256 joined columns, cut at column 128. -/
theorem dot_g (r : Fin 524288) (j : Fin 128) :
    val_main_v1 (F := Ideal) x0 x1 x3 (ix2 (n0 := 524288) (n1 := 128) r j)
      = ∑ k : Fin 128, x1 (ix2 (n0 := 524288) (n1 := 128) r k) * x3 (ix2 (n0 := 128) (n1 := 256) j (lo k))
        + ∑ k : Fin 128, x0 (ix2 (n0 := 524288) (n1 := 128) r k) * x3 (ix2 (n0 := 128) (n1 := 256) j (hi k)) := by
  rw [val_main_v1_apply, sum_halves]
  refine congrArg₂ (· + ·) (Finset.sum_congr rfl fun k _ => ?_) (Finset.sum_congr rfl fun k _ => ?_)
  · have e1 : lidx_main_v1 (ix2 (n0 := 524288) (n1 := 128) r j) (lo k) = ix2 (n0 := 524288) (n1 := 256) r (lo k) :=
      funext fun a => Fin.ext (by match a with | ⟨0, _⟩ => rfl | ⟨1, _⟩ => rfl)
    have e2 : ridx_main_v1 (ix2 (n0 := 524288) (n1 := 128) r j) (lo k) = ix2 (n0 := 128) (n1 := 256) j (lo k) :=
      funext fun a => Fin.ext (by match a with | ⟨0, _⟩ => rfl | ⟨1, _⟩ => rfl)
    beta_reduce
    rw [e1, e2, joined_lo]
  · have e1 : lidx_main_v1 (ix2 (n0 := 524288) (n1 := 128) r j) (hi k) = ix2 (n0 := 524288) (n1 := 256) r (hi k) :=
      funext fun a => Fin.ext (by match a with | ⟨0, _⟩ => rfl | ⟨1, _⟩ => rfl)
    have e2 : ridx_main_v1 (ix2 (n0 := 524288) (n1 := 128) r j) (hi k) = ix2 (n0 := 128) (n1 := 256) j (hi k) :=
      funext fun a => Fin.ext (by match a with | ⟨0, _⟩ => rfl | ⟨1, _⟩ => rfl)
    beta_reduce
    rw [e1, e2, joined_hi]

/-- The other product, the same way. -/
theorem dot_a (r : Fin 524288) (j : Fin 128) :
    val_main_v11 (F := Ideal) x0 x1 x2 (ix2 (n0 := 524288) (n1 := 128) r j)
      = ∑ k : Fin 128, x1 (ix2 (n0 := 524288) (n1 := 128) r k) * x2 (ix2 (n0 := 128) (n1 := 256) j (lo k))
        + ∑ k : Fin 128, x0 (ix2 (n0 := 524288) (n1 := 128) r k) * x2 (ix2 (n0 := 128) (n1 := 256) j (hi k)) := by
  rw [val_main_v11_apply, sum_halves]
  refine congrArg₂ (· + ·) (Finset.sum_congr rfl fun k _ => ?_) (Finset.sum_congr rfl fun k _ => ?_)
  · have e1 : lidx_main_v11 (ix2 (n0 := 524288) (n1 := 128) r j) (lo k) = ix2 (n0 := 524288) (n1 := 256) r (lo k) :=
      funext fun a => Fin.ext (by match a with | ⟨0, _⟩ => rfl | ⟨1, _⟩ => rfl)
    have e2 : ridx_main_v11 (ix2 (n0 := 524288) (n1 := 128) r j) (lo k) = ix2 (n0 := 128) (n1 := 256) j (lo k) :=
      funext fun a => Fin.ext (by match a with | ⟨0, _⟩ => rfl | ⟨1, _⟩ => rfl)
    beta_reduce
    rw [e1, e2, joined_lo]
  · have e1 : lidx_main_v11 (ix2 (n0 := 524288) (n1 := 128) r j) (hi k) = ix2 (n0 := 524288) (n1 := 256) r (hi k) :=
      funext fun a => Fin.ext (by match a with | ⟨0, _⟩ => rfl | ⟨1, _⟩ => rfl)
    have e2 : ridx_main_v11 (ix2 (n0 := 524288) (n1 := 128) r j) (hi k) = ix2 (n0 := 128) (n1 := 256) j (hi k) :=
      funext fun a => Fin.ext (by match a with | ⟨0, _⟩ => rfl | ⟨1, _⟩ => rfl)
    beta_reduce
    rw [e1, e2, joined_hi]

/-- A vector broadcast down the rows reads its entry j. -/
theorem bias_g (r : Fin 524288) (j : Fin 128) :
    val_main_v3 (F := Ideal) x5 (ix2 (n0 := 524288) (n1 := 128) r j) = x5 (ix1 (n := 128) j) := by
  rw [val_main_v3_apply, val_main_v2_apply]
  exact congrArg x5 (funext fun a => Fin.ext (by match a with | ⟨0, _⟩ => rfl))
theorem bias_a (r : Fin 524288) (j : Fin 128) :
    val_main_v13 (F := Ideal) x4 (ix2 (n0 := 524288) (n1 := 128) r j) = x4 (ix1 (n := 128) j) := by
  rw [val_main_v13_apply, val_main_v12_apply]
  exact congrArg x4 (funext fun a => Fin.ext (by match a with | ⟨0, _⟩ => rfl))
theorem scale_at (r : Fin 524288) (j : Fin 128) :
    val_main_v40 (F := Ideal) x6 (ix2 (n0 := 524288) (n1 := 128) r j) = x6 (ix1 (n := 128) j) := by
  rw [val_main_v40_apply, val_main_v39_apply]
  exact congrArg x6 (funext fun a => Fin.ext (by match a with | ⟨0, _⟩ => rfl))
theorem shift_at (r : Fin 524288) (j : Fin 128) :
    val_main_v43 (F := Ideal) x7 (ix2 (n0 := 524288) (n1 := 128) r j) = x7 (ix1 (n := 128) j) := by
  rw [val_main_v43_apply, val_main_v42_apply]
  exact congrArg x7 (funext fun a => Fin.ext (by match a with | ⟨0, _⟩ => rfl))

/-- The gate's affine map at (r, j). -/
theorem affine_g (r : Fin 524288) (j : Fin 128) :
    val_main_v4 (F := Ideal) x0 x1 x3 x5 (ix2 (n0 := 524288) (n1 := 128) r j) = aff x0 x1 x3 x5 r j := by
  rw [val_main_v4_apply, dot_g, bias_g]; rfl
/-- The other affine map at (r, j). -/
theorem affine_a (r : Fin 524288) (j : Fin 128) :
    val_main_v14 (F := Ideal) x0 x1 x2 x4 (ix2 (n0 := 524288) (n1 := 128) r j) = aff x0 x1 x2 x4 r j := by
  rw [val_main_v14_apply, dot_a, bias_a]; rfl

/-! ## The mixed row -/

/-- Row r after the gate. -/
abbrev mixed (r : Fin 524288) : Fin 128 → EReal := fun n => gated (aff x0 x1 x2 x4 r n) (aff x0 x1 x3 x5 r n)

theorem mixed_at (r : Fin 524288) (j : Fin 128) :
    val_main_v20 (F := Ideal) x0 x1 x2 x3 x4 x5 (ix2 (n0 := 524288) (n1 := 128) r j) = mixed x0 x1 x2 x3 x4 x5 r j := by
  rw [val_main_v20_apply, val_main_v16_apply, val_main_v19_apply, val_main_v18_apply, val_main_v17_apply, val_main_cst_1_apply,
    val_main_v15_apply, val_main_v10_apply, val_main_v9_apply, val_main_cst_0_apply, val_main_v8_apply, val_main_v7_apply,
    val_main_cst_apply, val_main_v6_apply, val_main_v5_apply, affine_a, affine_g]
  show _ = gated _ _
  rw [gated_expanded]
  rfl

/-! ## The norm of the mixed row -/

/-- The row's sum starts from the literal zero. -/
theorem rowsum_at (r : Fin 524288) :
    val_main_v21 (F := Ideal) x0 x1 x2 x3 x4 x5 (ix1 (n := 524288) r) = ∑ k : Fin 128, mixed x0 x1 x2 x3 x4 x5 r k := by
  rw [val_main_v21_apply, val_main_cst_2_apply]
  show Ideal.ofBits .f32 0x00000000#32 + _ = _
  rw [Ideal.ofBits_zero_f32, zero_add]
  refine Finset.sum_congr rfl fun k _ => ?_
  have e : idx_main_v21 (ix1 (n := 524288) r) k = ix2 (n0 := 524288) (n1 := 128) r k :=
    funext fun a => Fin.ext (by match a with | ⟨0, _⟩ => rfl | ⟨1, _⟩ => rfl)
  rw [e, mixed_at]

/-- The row's mean, kept as a one-column array. -/
theorem mean_at (r : Fin 524288) :
    val_main_v24 (F := Ideal) x0 x1 x2 x3 x4 x5 (ix2 (n0 := 524288) (n1 := 1) r 0) = mean (mixed x0 x1 x2 x3 x4 x5 r) := by
  rw [val_main_v24_apply, val_main_v22_apply, val_main_v23_apply, val_main_cst_3_apply]
  have e : idx_main_v22 (ix2 (n0 := 524288) (n1 := 1) r 0) = ix1 (n := 524288) r :=
    funext fun a => Fin.ext (by match a with | ⟨0, _⟩ => rfl)
  rw [e, rowsum_at]; rfl

/-- The centred entry (the reference computes it twice: once for the variance, once for the result). -/
theorem centred_at (r : Fin 524288) (j : Fin 128) :
    val_main_v26 (F := Ideal) x0 x1 x2 x3 x4 x5 (ix2 (n0 := 524288) (n1 := 128) r j)
      = mixed x0 x1 x2 x3 x4 x5 r j - mean (mixed x0 x1 x2 x3 x4 x5 r) := by
  rw [val_main_v26_apply, val_main_v25_apply, mixed_at]
  have e : idx_main_v25 (ix2 (n0 := 524288) (n1 := 128) r j) = ix2 (n0 := 524288) (n1 := 1) r 0 :=
    funext fun a => Fin.ext (by match a with | ⟨0, _⟩ => rfl | ⟨1, _⟩ => rfl)
  rw [e, mean_at]; rfl
theorem centred_at' (r : Fin 524288) (j : Fin 128) :
    val_main_v33 (F := Ideal) x0 x1 x2 x3 x4 x5 (ix2 (n0 := 524288) (n1 := 128) r j)
      = mixed x0 x1 x2 x3 x4 x5 r j - mean (mixed x0 x1 x2 x3 x4 x5 r) := by
  rw [val_main_v33_apply, val_main_v32_apply, mixed_at]
  have e : idx_main_v32 (ix2 (n0 := 524288) (n1 := 128) r j) = ix2 (n0 := 524288) (n1 := 1) r 0 :=
    funext fun a => Fin.ext (by match a with | ⟨0, _⟩ => rfl | ⟨1, _⟩ => rfl)
  rw [e, mean_at]; rfl

/-- The sum of the squared centred entries, again from the literal zero. -/
theorem sqsum_at (r : Fin 524288) :
    val_main_v28 (F := Ideal) x0 x1 x2 x3 x4 x5 (ix1 (n := 524288) r)
      = ∑ k : Fin 128, (mixed x0 x1 x2 x3 x4 x5 r k - mean (mixed x0 x1 x2 x3 x4 x5 r))
          * (mixed x0 x1 x2 x3 x4 x5 r k - mean (mixed x0 x1 x2 x3 x4 x5 r)) := by
  rw [val_main_v28_apply, val_main_cst_4_apply]
  show Ideal.ofBits .f32 0x00000000#32 + _ = _
  rw [Ideal.ofBits_zero_f32, zero_add]
  refine Finset.sum_congr rfl fun k _ => ?_
  have e : idx_main_v28 (ix1 (n := 524288) r) k = ix2 (n0 := 524288) (n1 := 128) r k :=
    funext fun a => Fin.ext (by match a with | ⟨0, _⟩ => rfl | ⟨1, _⟩ => rfl)
  rw [e, val_main_v27_apply, centred_at]; rfl

/-- The variance. -/
theorem var_at (r : Fin 524288) :
    val_main_v31 (F := Ideal) x0 x1 x2 x3 x4 x5 (ix2 (n0 := 524288) (n1 := 1) r 0)
      = mean (fun k => (mixed x0 x1 x2 x3 x4 x5 r k - mean (mixed x0 x1 x2 x3 x4 x5 r))
          * (mixed x0 x1 x2 x3 x4 x5 r k - mean (mixed x0 x1 x2 x3 x4 x5 r))) := by
  rw [val_main_v31_apply, val_main_v29_apply, val_main_v30_apply, val_main_cst_5_apply]
  have e : idx_main_v29 (ix2 (n0 := 524288) (n1 := 1) r 0) = ix1 (n := 524288) r :=
    funext fun a => Fin.ext (by match a with | ⟨0, _⟩ => rfl)
  rw [e, sqsum_at]; rfl

/-- The result at (r, j): the norm of the mixed row r, scaled and shifted. -/
theorem result_at (r : Fin 524288) (j : Fin 128) :
    val_main_v44 (F := Ideal) x0 x1 x2 x3 x4 x5 x6 x7 (ix2 (n0 := 524288) (n1 := 128) r j)
      = norm (mixed x0 x1 x2 x3 x4 x5 r) (fun n => x6 (ix1 (n := 128) n)) (fun n => x7 (ix1 (n := 128) n)) j := by
  rw [val_main_v44_apply, val_main_v41_apply, val_main_v38_apply, val_main_v37_apply, val_main_v36_apply, val_main_v35_apply,
    val_main_v34_apply, val_main_cst_6_apply, centred_at', scale_at, shift_at]
  have e : idx_main_v37 (ix2 (n0 := 524288) (n1 := 128) r j) = ix2 (n0 := 524288) (n1 := 1) r 0 :=
    funext fun a => Fin.ext (by match a with | ⟨0, _⟩ => rfl | ⟨1, _⟩ => rfl)
  rw [e, var_at]; rfl

/-- The reference's last stage is the specification, as whole arrays. -/
theorem ref_is_spec : val_main_v44 (F := Ideal) x0 x1 x2 x3 x4 x5 x6 x7 = G x0 x1 x2 x3 x4 x5 x6 x7 := by
  funext i
  obtain ⟨r, j, rfl⟩ : ∃ (r : Fin 524288) (j : Fin 128), i = ix2 (n0 := 524288) (n1 := 128) r j := ⟨i 0, i 1, eq_ix2 i⟩
  rw [result_at]; rfl

end Cert.ReferenceIdeal.RefValue

end
-- ==== Proof.lean ====
/-
  The kernel and its reference compute one function on the extended reals.

  Both take a row of the state and a row of the input, form two affine maps of the joined row (one per gate), mix
  tanh of the first with the first itself by the sigmoid of the second, and normalise the mixed row (mean, variance,
  inverse root, scale, shift). The kernel does it 4096 rows at a time against weight matrices the host has cut at
  column 128, transposed and rejoined, as two products of 128 contracted columns each; the reference does it on all rows
  at once as one product over the 256 joined columns. A sum over 256 columns is the sum over its two halves, the
  sigmoid is 1 / (1 + e^(-z)) on every extended real, and a change of float format is the identity: nothing else
  separates the two, and no finiteness of the inputs is used.

  The three programs' frames are the generated ones (the reference's is its generated run with the result dropped),
  the idealization rewrote nothing, and the two idealized programs end with the result array at the same function of
  arguments that agree.
-/
import proofs.«141288_j16801912062282_2_alg».proof.Defs
import proofs.«141288_j16801912062282_2_alg».proof.Proof.Gen.Kernel
import proofs.«141288_j16801912062282_2_alg».proof.Proof.Gen.Kernel.Skeleton
import proofs.«141288_j16801912062282_2_alg».proof.Proof.Gen.Kernel.Launch
import proofs.«141288_j16801912062282_2_alg».proof.Proof.Gen.Kernel.Points
import proofs.«141288_j16801912062282_2_alg».proof.Proof.Gen.Kernel.Frame
import proofs.«141288_j16801912062282_2_alg».proof.Proof.Gen.KernelIdeal
import proofs.«141288_j16801912062282_2_alg».proof.Proof.Gen.KernelIdeal.Skeleton
import proofs.«141288_j16801912062282_2_alg».proof.Proof.Gen.KernelIdeal.Launch
import proofs.«141288_j16801912062282_2_alg».proof.Proof.Gen.KernelIdeal.Points
import proofs.«141288_j16801912062282_2_alg».proof.Proof.Gen.KernelIdeal.Frame
import proofs.«141288_j16801912062282_2_alg».proof.Proof.Gen.KernelIdeal.Value
import proofs.«141288_j16801912062282_2_alg».proof.Proof.Gen.ReferenceIdeal
import proofs.«141288_j16801912062282_2_alg».proof.Proof.Gen.ReferenceIdeal.Run
import proofs.«141288_j16801912062282_2_alg».proof.Proof.Gen.ReferenceIdeal.Read
import proofs.«141288_j16801912062282_2_alg».proof.Proof.Gen.Pre_finite_inputs
import proofs.«141288_j16801912062282_2_alg».proof.Proof.Blocks
import proofs.«141288_j16801912062282_2_alg».proof.Proof.RefRead
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the eight arguments, the kernel's result array ends at the cell-and-norm function of its
    arguments and the reference's at the same function of its own: equal, entry by entry. -/
theorem algebraic : Cert.algebraic_KernelIdeal_ReferenceIdeal := by
  intro m ρ m' ρ' _ hagree
  refine ⟨fun c => Cert.KernelIdeal.Blocks.Gm m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.ref_is_spec]
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
